-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S4x2048x4096 .f32) (main_arg1 : FVec F S65536x8 .f32) (main_arg2 : IVec S11008x512 32) (main_arg3 : IVec S11008x512 32) (main_arg4 : IVec S4096x1376 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  main_v8
-- ==== Kernel.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩
abbrev S11008x512x1 : Shape := ⟨3, ![11008, 512, 1]⟩
abbrev S11008x512x8 : Shape := ⟨3, ![11008, 512, 8]⟩
abbrev S11008x4096 : Shape := ⟨2, ![11008, 4096]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S8192x4096 : Shape := ⟨2, ![8192, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 41
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S11008x512, .i32⟩
  | .hbm, ⟨3, _⟩ => ⟨S11008x512, .i32⟩
  | .hbm, ⟨4, _⟩ => ⟨S4096x1376, .i32⟩
  | .hbm, ⟨5, _⟩ => ⟨S65536x8, .bf16⟩
  | .hbm, ⟨6, _⟩ => ⟨S_, .i32⟩
  | .hbm, ⟨7, _⟩ => ⟨S11008x512, .i32⟩
  | .hbm, ⟨8, _⟩ => ⟨S11008x512, .i1⟩
  | .hbm, ⟨9, _⟩ => ⟨S_, .i32⟩
  | .hbm, ⟨10, _⟩ => ⟨S11008x512, .i32⟩
  | .hbm, ⟨11, _⟩ => ⟨S11008x512, .i32⟩
  | .hbm, ⟨12, _⟩ => ⟨S11008x512, .i32⟩
  | .hbm, ⟨13, _⟩ => ⟨S11008x512x1, .i32⟩
  | .hbm, ⟨14, _⟩ => ⟨S11008x512x8, .bf16⟩
  | .hbm, ⟨15, _⟩ => ⟨S11008x4096, .bf16⟩
  | .hbm, ⟨16, _⟩ => ⟨S_, .i32⟩
  | .hbm, ⟨17, _⟩ => ⟨S11008x512, .i32⟩
  | .hbm, ⟨18, _⟩ => ⟨S11008x512, .i1⟩
  | .hbm, ⟨19, _⟩ => ⟨S_, .i32⟩
  | .hbm, ⟨20, _⟩ => ⟨S11008x512, .i32⟩
  | .hbm, ⟨21, _⟩ => ⟨S11008x512, .i32⟩
  | .hbm, ⟨22, _⟩ => ⟨S11008x512, .i32⟩
  | .hbm, ⟨23, _⟩ => ⟨S11008x512x1, .i32⟩
  | .hbm, ⟨24, _⟩ => ⟨S11008x512x8, .bf16⟩
  | .hbm, ⟨25, _⟩ => ⟨S11008x4096, .bf16⟩
  | .hbm, ⟨26, _⟩ => ⟨S_, .i32⟩
  | .hbm, ⟨27, _⟩ => ⟨S4096x1376, .i32⟩
  | .hbm, ⟨28, _⟩ => ⟨S4096x1376, .i1⟩
  | .hbm, ⟨29, _⟩ => ⟨S_, .i32⟩
  | .hbm, ⟨30, _⟩ => ⟨S4096x1376, .i32⟩
  | .hbm, ⟨31, _⟩ => ⟨S4096x1376, .i32⟩
  | .hbm, ⟨32, _⟩ => ⟨S4096x1376, .i32⟩
  | .hbm, ⟨33, _⟩ => ⟨S4096x1376x1, .i32⟩
  | .hbm, ⟨34, _⟩ => ⟨S4096x1376x8, .bf16⟩
  | .hbm, ⟨35, _⟩ => ⟨S4096x11008, .bf16⟩
  | .hbm, ⟨36, _⟩ => ⟨S11008x4096, .bf16⟩
  | .hbm, ⟨37, _⟩ => ⟨S8192x4096, .f32⟩
  | .hbm, ⟨38, _⟩ => ⟨S8192x4096, .bf16⟩
  | .hbm, ⟨39, _⟩ => ⟨S8192x4096, .f32⟩
  | .hbm, ⟨40, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  shapeCasts_S11008x512x8_S11008x4096 : S11008x512x8.ShapeCasts S11008x4096
  bcast_S_S4096x1376 : S_.BroadcastsInDim S4096x1376 (![] : Fin 0 → Fin S4096x1376.rank)
  bcast_S4096x1376_S4096x1376x1_0_1 : S4096x1376.BroadcastsInDim S4096x1376x1 (![0, 1] : Fin 2 → Fin S4096x1376x1.rank)
  shapeCasts_S4096x1376x8_S4096x11008 : S4096x1376x8.ShapeCasts S4096x11008
  transposes_S4096x11008_S11008x4096_1_0 : S4096x11008.Transposes [1, 0] S11008x4096
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  shapeCasts_S8192x4096_S4x2048x4096 : S8192x4096.ShapeCasts S4x2048x4096
  gather_S65536x8_S11008x512x1_S11008x512x8_2_0_n_n_0_2_18_wf : GatherDims.WF S65536x8 S11008x512x1 S11008x512x8 [2] [0] [] [0] [] 2 ![1, 8]
  gather_S65536x8_S4096x1376x1_S4096x1376x8_2_0_n_n_0_2_18_wf : GatherDims.WF S65536x8 S4096x1376x1 S4096x1376x8 [2] [0] [] [0] [] 2 ![1, 8]
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def gather_S65536x8_S4096x1376x1_S4096x1376x8_2_0_n_n_0_2_18 : GatherDims S65536x8 S4096x1376x1 S4096x1376x8 where
  offsetDims := [2]
  collapsedSliceDims := [0]
  operandBatchingDims := []
  startIndicesBatchingDims := []
  startIndexMap := [0]
  indexVectorDim := 2
  sliceSizes := ![1, 8]
  wf := gather_S65536x8_S4096x1376x1_S4096x1376x8_2_0_n_n_0_2_18_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v27) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩
abbrev S11008x512x1 : Shape := ⟨3, ![11008, 512, 1]⟩
abbrev S11008x512x8 : Shape := ⟨3, ![11008, 512, 8]⟩
abbrev S11008x4096 : Shape := ⟨2, ![11008, 4096]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S4x2048x11008 : Shape := ⟨3, ![4, 2048, 11008]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S11008x512, .i32⟩
  | .hbm, ⟨3, _⟩ => ⟨S11008x512, .i32⟩
  | .hbm, ⟨4, _⟩ => ⟨S4096x1376, .i32⟩
  | .hbm, ⟨5, _⟩ => ⟨S_, .i32⟩
  | .hbm, ⟨6, _⟩ => ⟨S11008x512, .i32⟩
  | .hbm, ⟨7, _⟩ => ⟨S11008x512, .i1⟩
  | .hbm, ⟨8, _⟩ => ⟨S_, .i32⟩
  | .hbm, ⟨9, _⟩ => ⟨S11008x512, .i32⟩
  | .hbm, ⟨10, _⟩ => ⟨S11008x512, .i32⟩
  | .hbm, ⟨11, _⟩ => ⟨S11008x512, .i32⟩
  | .hbm, ⟨12, _⟩ => ⟨S11008x512x1, .i32⟩
  | .hbm, ⟨13, _⟩ => ⟨S11008x512x8, .f32⟩
  | .hbm, ⟨14, _⟩ => ⟨S11008x4096, .f32⟩
  | .hbm, ⟨15, _⟩ => ⟨S_, .i32⟩
  | .hbm, ⟨16, _⟩ => ⟨S11008x512, .i32⟩
  | .hbm, ⟨17, _⟩ => ⟨S11008x512, .i1⟩
  | .hbm, ⟨18, _⟩ => ⟨S_, .i32⟩
  | .hbm, ⟨19, _⟩ => ⟨S11008x512, .i32⟩
  | .hbm, ⟨20, _⟩ => ⟨S11008x512, .i32⟩
  | .hbm, ⟨21, _⟩ => ⟨S11008x512, .i32⟩
  | .hbm, ⟨22, _⟩ => ⟨S11008x512x1, .i32⟩
  | .hbm, ⟨23, _⟩ => ⟨S11008x512x8, .f32⟩
  | .hbm, ⟨24, _⟩ => ⟨S11008x4096, .f32⟩
  | .hbm, ⟨25, _⟩ => ⟨S_, .i32⟩
  | .hbm, ⟨26, _⟩ => ⟨S4096x1376, .i32⟩
  | .hbm, ⟨27, _⟩ => ⟨S4096x1376, .i1⟩
  | .hbm, ⟨28, _⟩ => ⟨S_, .i32⟩
  | .hbm, ⟨29, _⟩ => ⟨S4096x1376, .i32⟩
  | .hbm, ⟨30, _⟩ => ⟨S4096x1376, .i32⟩
  | .hbm, ⟨31, _⟩ => ⟨S4096x1376, .i32⟩
  | .hbm, ⟨32, _⟩ => ⟨S4096x1376x1, .i32⟩
  | .hbm, ⟨33, _⟩ => ⟨S4096x1376x8, .f32⟩
  | .hbm, ⟨34, _⟩ => ⟨S4096x11008, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S4x2048x11008, .f32⟩
  | .hbm, ⟨39, _⟩ => ⟨S_, .f32⟩
  | .hbm, ⟨40, _⟩ => ⟨S4x2048x11008, .f32⟩
  | .hbm, ⟨41, _⟩ => ⟨S4x2048x11008, .f32⟩
  | .hbm, ⟨42, _⟩ => ⟨S_, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .f32⟩
  | .hbm, ⟨47, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  shapeCasts_S11008x512x8_S11008x4096 : S11008x512x8.ShapeCasts S11008x4096
  bcast_S_S4096x1376 : S_.BroadcastsInDim S4096x1376 (![] : Fin 0 → Fin S4096x1376.rank)
  bcast_S4096x1376_S4096x1376x1_0_1 : S4096x1376.BroadcastsInDim S4096x1376x1 (![0, 1] : Fin 2 → Fin S4096x1376x1.rank)
  shapeCasts_S4096x1376x8_S4096x11008 : S4096x1376x8.ShapeCasts S4096x11008
  bcast_S_S4x2048x11008 : S_.BroadcastsInDim S4x2048x11008 (![] : Fin 0 → Fin S4x2048x11008.rank)
  gather_S65536x8_S11008x512x1_S11008x512x8_2_0_n_n_0_2_18_wf : GatherDims.WF S65536x8 S11008x512x1 S11008x512x8 [2] [0] [] [0] [] 2 ![1, 8]
  gather_S65536x8_S4096x1376x1_S4096x1376x8_2_0_n_n_0_2_18_wf : GatherDims.WF S65536x8 S4096x1376x1 S4096x1376x8 [2] [0] [] [0] [] 2 ![1, 8]
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def gather_S65536x8_S4096x1376x1_S4096x1376x8_2_0_n_n_0_2_18 : GatherDims S65536x8 S4096x1376x1 S4096x1376x8 where
  offsetDims := [2]
  collapsedSliceDims := [0]
  operandBatchingDims := []
  startIndicesBatchingDims := []
  startIndexMap := [0]
  indexVectorDim := 2
  sliceSizes := ![1, 8]
  wf := gather_S65536x8_S4096x1376x1_S4096x1376x8_2_0_n_n_0_2_18_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
/-
  The gated feed-forward layer over the extended reals, entry by entry, on a matrix of 8192 token rows.

  A token row `r` is projected on each of the 11008 intermediate positions `i` twice (`proj`, with the gate weights
  and with the up weights); the gate projection passes through `g ↦ g · logistic g` and multiplies the up projection
  (`act`); the result row is the contraction of these 11008 activations with the down weights (`out2`). The only
  rearrangement used anywhere in this certificate is that a sum over the 11008 positions may be taken tile by tile,
  43 consecutive tiles of 256 positions, the tiles added in order from the first (`partialSum`): sums over the extended
  reals are sums in a commutative monoid, so nothing about finiteness is needed.
-/
import Idealize.ShloMosaic.PureOps.Ideal.Laws
import Idealize.ShloMosaic.Lib.ValueIdx

noncomputable section

open scoped BigOperators
open Idealize.ShloMosaic Idealize.ShloMosaic.ValueIdx

namespace Mlp

/-- Token rows by hidden positions. -/
abbrev Rows : Shape := ⟨2, ![8192, 4096]⟩
/-- Intermediate positions by hidden positions. -/
abbrev Wts : Shape := ⟨2, ![11008, 4096]⟩

/-- Row `r` projected on intermediate position `i`: the sum over the hidden positions. -/
def proj (X : Rows.Idx → EReal) (W : Wts.Idx → EReal) (r : Fin 8192) (i : Fin 11008) : EReal :=
  ∑ h : Fin 4096, X (ix2 r h) * W (ix2 i h)

/-- The gated activation of row `r` at intermediate position `i`: `(g · logistic g) · u`. -/
def act (X : Rows.Idx → EReal) (WG WU : Wts.Idx → EReal) (r : Fin 8192) (i : Fin 11008) : EReal :=
  proj X WG r i * Ideal.logistic (proj X WG r i) * proj X WU r i

/-- The layer's result at row `r`, hidden position `q`: the activations contracted with the down weights, which are
    given here already transposed, intermediate positions by hidden positions. -/
def out2 (X : Rows.Idx → EReal) (WG WU WDT : Wts.Idx → EReal) (r : Fin 8192) (q : Fin 4096) : EReal :=
  ∑ i : Fin 11008, act X WG WU r i * WDT (ix2 i q)

/-- Position `k` of tile `t` of the intermediate axis. -/
def pos (t : Fin 43) (k : Fin 256) : Fin 11008 := ⟨256 * t.val + k.val, by omega⟩

/-- Tile `t`'s share of the result at `(r, q)`. -/
def tile (X : Rows.Idx → EReal) (WG WU WDT : Wts.Idx → EReal) (r : Fin 8192) (t : Fin 43) (q : Fin 4096) : EReal :=
  ∑ k : Fin 256, act X WG WU r (pos t k) * WDT (ix2 (pos t k) q)

/-- The tiles `0 … b` added up. -/
def partialSum (X : Rows.Idx → EReal) (WG WU WDT : Wts.Idx → EReal) (r : Fin 8192) (b : ℕ) (q : Fin 4096) : EReal :=
  ∑ t ∈ Finset.univ.filter (fun t : Fin 43 => t.val ≤ b), tile X WG WU WDT r t q

/-- A sum over the intermediate axis, tile by tile. -/
theorem sum_tiles {M : Type*} [AddCommMonoid M] (f : Fin 11008 → M) :
    ∑ i, f i = ∑ t : Fin 43, ∑ k : Fin 256, f (pos t k) := by
  rw [← Equiv.sum_comp (finProdFinEquiv.trans (finCongr (by norm_num : 43 * 256 = 11008))), Fintype.sum_prod_type]
  refine Finset.sum_congr rfl fun t _ => Finset.sum_congr rfl fun k _ => congrArg f (Fin.ext ?_)
  simp only [Equiv.trans_apply, finCongr_apply, Fin.coe_cast, finProdFinEquiv_apply_val, pos]
  omega

variable (X : Rows.Idx → EReal) (WG WU WDT : Wts.Idx → EReal) (r : Fin 8192) (q : Fin 4096)

/-- The first tile alone. -/
theorem partialSum_zero : partialSum X WG WU WDT r 0 q = tile X WG WU WDT r 0 q := by
  unfold partialSum
  have h : Finset.univ.filter (fun t : Fin 43 => t.val ≤ 0) = {0} := by
    ext t; simp only [Finset.mem_filter, Finset.mem_univ, true_and, Finset.mem_singleton, Fin.ext_iff, Fin.val_zero]; omega
  rw [h, Finset.sum_singleton]

/-- One more tile. -/
theorem partialSum_succ (b : ℕ) (hb : b + 1 < 43) :
    partialSum X WG WU WDT r (b + 1) q = partialSum X WG WU WDT r b q + tile X WG WU WDT r ⟨b + 1, hb⟩ q := by
  unfold partialSum
  have h : Finset.univ.filter (fun t : Fin 43 => t.val ≤ b + 1)
      = insert (⟨b + 1, hb⟩ : Fin 43) (Finset.univ.filter (fun t : Fin 43 => t.val ≤ b)) := by
    ext t; simp only [Finset.mem_filter, Finset.mem_univ, true_and, Finset.mem_insert, Fin.ext_iff]; omega
  rw [h, Finset.sum_insert (by simp only [Finset.mem_filter, Finset.mem_univ, true_and]; omega), add_comm]

/-- The first tile alone, the tile's number given by an equation. -/
theorem partialSum_first (b : ℕ) (hb : b < 43) (e : b = 0) :
    partialSum X WG WU WDT r b q = tile X WG WU WDT r ⟨b, hb⟩ q := by
  subst e; exact partialSum_zero X WG WU WDT r q

/-- One more tile, the tile's number given by an equation. -/
theorem partialSum_step (b b' : ℕ) (hb' : b' < 43) (e : b' = b + 1) :
    partialSum X WG WU WDT r b' q = partialSum X WG WU WDT r b q + tile X WG WU WDT r ⟨b', hb'⟩ q := by
  subst e; exact partialSum_succ X WG WU WDT r q b hb'

/-- All 43 tiles: the whole contraction. -/
theorem partialSum_last : partialSum X WG WU WDT r 42 q = out2 X WG WU WDT r q := by
  unfold partialSum out2 tile
  have h : Finset.univ.filter (fun t : Fin 43 => t.val ≤ 42) = Finset.univ := by
    ext t; simp only [Finset.mem_filter, Finset.mem_univ, true_and, iff_true]; omega
  rw [h, sum_tiles]

end Mlp

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Body.lean ====
/-
  What one run of the kernel body computes, entry by entry, over the extended reals.

  The body holds a block of 512 token rows `x0`, one tile of 256 rows of each of the three weight matrices
  (`x1` gate, `x2` up, `x3` down, the last already transposed) and the running result block `xo`. It multiplies the
  token rows by the transposed gate and up tiles (two products into the zero matrix: `projTile`), forms
  `(g · logistic g) · u` entrywise, multiplies that by the down tile (a third product into zero) and adds the running
  block. At the entry `(p, q)` this is `xo (p, q) + ∑ k, (g k · logistic (g k) · u k) · x3 (k, q)` with
  `g k = ∑ h, x0 (p, h) · x1 (k, h)` and `u k` likewise over `x2`: three plain sums, the narrowing to a 16-bit format
  being the identity on the extended reals.
-/
import proofs.«178565_j44899588112791_2_alg».proof.Proof.Gen.KernelIdeal.Skeleton
import proofs.«178565_j44899588112791_2_alg».proof.Proof.LibMatmul
import Idealize.ShloMosaic.Lib.ValueLayout
import Idealize.ShloMosaic.Lib.Pipeline.Value

noncomputable section

open scoped BigOperators
open Idealize.ShloMosaic Idealize.ShloMosaic.ValueIdx

namespace Cert.KernelIdeal.Body

open Cert.KernelIdeal Cert.KernelIdeal.Gen

/-- Both projections contract the token rows' hidden axis with the transposed tile's first axis. -/
theorem plainProj : PlainMatmul.IsPlain (M := 512) (K := 4096) (N := 256) dot_S512x4096_S4096x256_S512x256_1_0_0_1_n_n :=
  ⟨rfl, rfl, rfl, rfl, rfl, rfl⟩

/-- The down product contracts the activations' tile axis with the down tile's first axis. -/
theorem plainDown : PlainMatmul.IsPlain (M := 512) (K := 256) (N := 4096) dot_S512x256_S256x4096_S512x4096_1_0_0_1_n_n :=
  ⟨rfl, rfl, rfl, rfl, rfl, rfl⟩

/-- The 512 token rows projected on the 256 positions of one weight tile. -/
def projTile (x0 : FVec Ideal S512x4096 .bf16) (w : FVec Ideal S256x4096 .bf16) : FVec Ideal S512x256 .f32 :=
  matmul dot_S512x4096_S4096x256_S512x256_1_0_0_1_n_n none x0
    (transpose S4096x256 [1, 0] w transposes_S256x4096_p1_0_S4096x256) (constant S512x256 .f32 0x00000000#32)

/-- Row `p` on position `k` of the tile: the sum over the hidden positions. -/
theorem projTile_apply (x0 : FVec Ideal S512x4096 .bf16) (w : FVec Ideal S256x4096 .bf16) (p : Fin 512) (k : Fin 256) :
    projTile x0 w (ix2 p k) = ∑ h : Fin 4096, x0 (ix2 p h) * w (ix2 k h) := by
  unfold projTile
  refine (PlainMatmul.apply plainProj none x0 _ p k).trans ?_
  refine Finset.sum_congr rfl fun h _ => ?_
  rw [transpose_ix2_apply]

/-- The body's stored block in these words (its identity shape casts dropped). -/
theorem pay2_eq (x0 : FVec Ideal S512x4096 .bf16) (x1 x2 x3 : FVec Ideal S256x4096 .bf16) (xo : FVec Ideal S512x4096 .f32) :
    k0_pay2 (F := Ideal) x0 x1 x2 x3 xo
      = addf xo (matmul dot_S512x256_S256x4096_S512x4096_1_0_0_1_n_n none
          (truncf .bf16 (mulf (mulf (projTile x0 x1) (logistic (projTile x0 x1))) (projTile x0 x2)) bitsLt_bf16_f32)
          x3 (constant S512x4096 .f32 0x00000000#32)) := by
  unfold k0_pay2 projTile
  simp only [shapeCast_self]

/-- The stored block at the entry `(p, q)`. -/
theorem pay2_apply (x0 : FVec Ideal S512x4096 .bf16) (x1 x2 x3 : FVec Ideal S256x4096 .bf16) (xo : FVec Ideal S512x4096 .f32)
    (p : Fin 512) (q : Fin 4096) :
    k0_pay2 (F := Ideal) x0 x1 x2 x3 xo (ix2 p q)
      = xo (ix2 p q) + ∑ k : Fin 256,
          ((∑ h : Fin 4096, x0 (ix2 p h) * x1 (ix2 k h)) * Ideal.logistic (∑ h : Fin 4096, x0 (ix2 p h) * x1 (ix2 k h))
            * (∑ h : Fin 4096, x0 (ix2 p h) * x2 (ix2 k h))) * x3 (ix2 k q) := by
  rw [pay2_eq]
  refine congrArg (fun z : EReal => xo (ix2 p q) + z) ?_
  refine (PlainMatmul.apply plainDown none _ x3 p q).trans ?_
  refine Finset.sum_congr rfl fun k _ => ?_
  rw [← projTile_apply x0 x1 p k, ← projTile_apply x0 x2 p k]
  rfl

/-- The block the reset stores is zero everywhere. -/
theorem pay1_apply (j : S512x4096.Idx) : k0_pay1 (F := Ideal) j = 0 := by
  unfold k0_pay1
  exact Ideal.ofBits_zero_f32

end Cert.KernelIdeal.Body

end
-- ==== Proof.Pieces.lean ====
/-
  What the body leaves in the result block's staging buffer, in each of its two control cases.

  At the first tile of a row block (case A) the body first stores the zero block, then reads it back and stores
  the zero block plus this tile's product; at every later tile (case B) it reads the running block the point before
  left and stores that plus this tile's product. In both cases the last store covers the whole buffer, so what the
  buffer holds is that store's value: the body's arithmetic applied to the four input blocks and to the zero block
  (case A) or the running block (case B).
-/
import proofs.«178565_j44899588112791_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case B: the body's arithmetic on the four input blocks and the running block `xo`. -/
theorem out_B (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S256x4096 .bf16) (h5 : a5.IsWhole) (a6 : Memref sig .tc .vmem S512x4096 .f32) (h6 : a6.IsWhole)
    (hc : ¬cond0_0 i) (x0 : Vec F S512x4096 .bf16) (x1 x2 x3 : Vec F S256x4096 .bf16) (xo : Vec F S512x4096 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz]
  simp only [View.readAt_eq_ld, h2.read_unread, h3.read_unread, h4.read_unread, h5.read_unread, h6.read_unread,
    View.ld_unit_zero (S := S512x4096) hz, View.ld_unit_zero (S := S256x4096) hz]

/-- Case A: the same arithmetic on the four input blocks and the zero block the reset stored. -/
theorem out_A (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S256x4096 .bf16) (h5 : a5.IsWhole) (a6 : Memref sig .tc .vmem S512x4096 .f32) (h6 : a6.IsWhole)
    (hc : cond0_0 i) (x0 : Vec F S512x4096 .bf16) (x1 x2 x3 : Vec F S256x4096 .bf16) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S256x4096) hz]

end Cert.KernelIdeal.Pieces

end
-- ==== Proof.Blocks.lean ====
/-
  The five windows' blocks, read entry by entry off the arrays the region finds.

  The grid has 16 row blocks by 43 tiles, the tile index moving fastest: point `t` is row block `t / 43`, tile
  `t % 43`. The token rows' window and the result's window follow the row block (512 rows each), the three weight
  windows follow the tile (256 rows each); no window moves along the hidden axis. So entry `(p, h)` of the token
  block at point `t` is row `512 · (t / 43) + p` of the token matrix, and entry `(k, h)` of a weight block is row
  `256 · (t % 43) + k` of that weight matrix.
-/
import proofs.«178565_j44899588112791_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Where each window's block sits at a point, decided over the grid. -/
theorem idx0 : ∀ t : Fin cfg0.N, win0_0.index t 0 = t.val / 43 ∧ win0_0.index t 1 = 0 :=
  (by decide +kernel : ∀ t : Fin grid0.N, win0_0.index t 0 = t.val / 43 ∧ win0_0.index t 1 = 0)
theorem idx1 : ∀ t : Fin cfg0.N, win0_1.index t 0 = t.val % 43 ∧ win0_1.index t 1 = 0 :=
  (by decide +kernel : ∀ t : Fin grid0.N, win0_1.index t 0 = t.val % 43 ∧ win0_1.index t 1 = 0)
theorem idx2 : ∀ t : Fin cfg0.N, win0_2.index t 0 = t.val % 43 ∧ win0_2.index t 1 = 0 :=
  (by decide +kernel : ∀ t : Fin grid0.N, win0_2.index t 0 = t.val % 43 ∧ win0_2.index t 1 = 0)
theorem idx3 : ∀ t : Fin cfg0.N, win0_3.index t 0 = t.val % 43 ∧ win0_3.index t 1 = 0 :=
  (by decide +kernel : ∀ t : Fin grid0.N, win0_3.index t 0 = t.val % 43 ∧ win0_3.index t 1 = 0)
theorem idx4 : ∀ t : Fin cfg0.N, win0_4.index t 0 = t.val / 43 ∧ win0_4.index t 1 = 0 :=
  (by decide +kernel : ∀ t : Fin grid0.N, win0_4.index t 0 = t.val / 43 ∧ win0_4.index t 1 = 0)

/-- The token block at point `t`: rows `512 · (t / 43) + p` of the token matrix. -/
theorem iblk0_apply (c : Dev nD) (t : Fin cfg0.N) (p : Fin 512) (h : Fin 4096) (r : Fin 8192)
    (hr : r.val = 512 * (t.val / 43) + p.val) :
    (iblk m c 0 t : FVec F S512x4096 .bf16) (ix2 p h) = (V m c main_v27 : FVec F S8192x4096 .bf16) (ix2 r h) := by
  unfold iblk
  rw [View.read_apply]
  show V m c main_v27 _ = V m c main_v27 _
  refine congrArg _ (funext fun a => Fin.ext ?_)
  match a with
  | ⟨0, _⟩ => show win0_0.index t 0 * 512 + 1 * p.val = r.val; rw [(idx0 t).1, hr]; omega
  | ⟨1, _⟩ => show win0_0.index t 1 * 4096 + 1 * h.val = h.val; rw [(idx0 t).2]; omega

/-- The gate tile at point `t`: rows `256 · (t % 43) + k` of the gate weights. -/
theorem iblk1_apply (c : Dev nD) (t : Fin cfg0.N) (k : Fin 256) (h : Fin 4096) (i : Fin 11008)
    (hi : i.val = 256 * (t.val % 43) + k.val) :
    (iblk m c 1 t : FVec F S256x4096 .bf16) (ix2 k h) = (V m c main_v8 : FVec F S11008x4096 .bf16) (ix2 i h) := by
  unfold iblk
  rw [View.read_apply]
  show V m c main_v8 _ = V m c main_v8 _
  refine congrArg _ (funext fun a => Fin.ext ?_)
  match a with
  | ⟨0, _⟩ => show win0_1.index t 0 * 256 + 1 * k.val = i.val; rw [(idx1 t).1, hi]; omega
  | ⟨1, _⟩ => show win0_1.index t 1 * 4096 + 1 * h.val = h.val; rw [(idx1 t).2]; omega

/-- The up tile at point `t`: rows `256 · (t % 43) + k` of the up weights. -/
theorem iblk2_apply (c : Dev nD) (t : Fin cfg0.N) (k : Fin 256) (h : Fin 4096) (i : Fin 11008)
    (hi : i.val = 256 * (t.val % 43) + k.val) :
    (iblk m c 2 t : FVec F S256x4096 .bf16) (ix2 k h) = (V m c main_v16 : FVec F S11008x4096 .bf16) (ix2 i h) := by
  unfold iblk
  rw [View.read_apply]
  show V m c main_v16 _ = V m c main_v16 _
  refine congrArg _ (funext fun a => Fin.ext ?_)
  match a with
  | ⟨0, _⟩ => show win0_2.index t 0 * 256 + 1 * k.val = i.val; rw [(idx2 t).1, hi]; omega
  | ⟨1, _⟩ => show win0_2.index t 1 * 4096 + 1 * h.val = h.val; rw [(idx2 t).2]; omega

/-- The down tile at point `t`: rows `256 · (t % 43) + k` of the transposed down weights. -/
theorem iblk3_apply (c : Dev nD) (t : Fin cfg0.N) (k : Fin 256) (q : Fin 4096) (i : Fin 11008)
    (hi : i.val = 256 * (t.val % 43) + k.val) :
    (iblk m c 3 t : FVec F S256x4096 .bf16) (ix2 k q) = (V m c main_v25 : FVec F S11008x4096 .bf16) (ix2 i q) := by
  unfold iblk
  rw [View.read_apply]
  show V m c main_v25 _ = V m c main_v25 _
  refine congrArg _ (funext fun a => Fin.ext ?_)
  match a with
  | ⟨0, _⟩ => show win0_3.index t 0 * 256 + 1 * k.val = i.val; rw [(idx3 t).1, hi]; omega
  | ⟨1, _⟩ => show win0_3.index t 1 * 4096 + 1 * q.val = q.val; rw [(idx3 t).2]; omega

end Cert.KernelIdeal.Blocks

end
-- ==== Proof.Chain.lean ====
/-
  The running result block, point by point: after the body at point `t` (row block `t / 43`, tile `t % 43`) the
  result's staging buffer holds, at the entry `(p, q)`, the tiles `0 … t % 43` of row `512 · (t / 43) + p` added up.

  At a row block's first tile the body adds the tile's product to the zero block; at a later tile to what the point
  before left, which is the same row block's sum up to the tile before. The induction is on the point; the only laws
  used are `0 + a = a` and the commutative-monoid laws of a finite sum, so no entry need be finite.
-/
import proofs.«178565_j44899588112791_2_alg».proof.Proof.Gen.KernelIdeal.Frame
import proofs.«178565_j44899588112791_2_alg».proof.Proof.Spec
import proofs.«178565_j44899588112791_2_alg».proof.Proof.Body
import proofs.«178565_j44899588112791_2_alg».proof.Proof.Pieces
import proofs.«178565_j44899588112791_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen

variable (m : (ℓ : Loc nD τ sig) → Buf (Elt Ideal) ℓ)

/-- The four arrays the region reads, as it finds them: the token rows and the gate, up and transposed down weights. -/
abbrev X (c : Dev nD) : Mlp.Rows.Idx → EReal := V m c main_v27
abbrev WG (c : Dev nD) : Mlp.Wts.Idx → EReal := V m c main_v8
abbrev WU (c : Dev nD) : Mlp.Wts.Idx → EReal := V m c main_v16
abbrev WDT (c : Dev nD) : Mlp.Wts.Idx → EReal := V m c main_v25

/-- At a first tile the buffer ends at the body's arithmetic on the point's blocks and the zero block. -/
theorem at_A (c : Dev nD) (t : Fin cfg0.N) (h0 : t.val % 43 = 0) :
    outsAt0 m c t.val t.isLt
      = k0_pay2 (F := Ideal) (iblk m c 0 t) (iblk m c 1 t) (iblk m c 2 t) (iblk m c 3 t) (k0_pay1 (F := Ideal)) :=
  (outsAt0_A m c t h0).trans
    (Pieces.out_A (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t) (iblk m c 3 t))

/-- At a later tile, on the point's blocks and what the point before left. -/
theorem at_B (c : Dev nD) (t : Fin cfg0.N) (h0 : ¬t.val % 43 = 0) :
    outsAt0 m c t.val t.isLt
      = k0_pay2 (F := Ideal) (iblk m c 0 t) (iblk m c 1 t) (iblk m c 2 t) (iblk m c 3 t)
          (outsAt0 m c (t.val - 1) (Nat.lt_of_le_of_lt (Nat.sub_le _ _) t.isLt)) :=
  (outsAt0_B m c t h0).trans
    (Pieces.out_B (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)))

/-- The body's arithmetic at point `t` on any running block: the running entry plus tile `t % 43`'s share of row
    `512 · (t / 43) + p`. -/
theorem point_eq (c : Dev nD) (t : Fin cfg0.N) (xo : FVec Ideal S512x4096 .f32) (p : Fin 512) (q : Fin 4096) (r : Fin 8192)
    (hr : r.val = 512 * (t.val / 43) + p.val) (ht : t.val % 43 < 43) :
    k0_pay2 (F := Ideal) (iblk m c 0 t) (iblk m c 1 t) (iblk m c 2 t) (iblk m c 3 t) xo (ix2 p q)
      = xo (ix2 p q) + Mlp.tile (X m c) (WG m c) (WU m c) (WDT m c) r ⟨t.val % 43, ht⟩ q := by
  refine (Body.pay2_apply (iblk m c 0 t) (iblk m c 1 t) (iblk m c 2 t) (iblk m c 3 t) xo p q).trans ?_
  refine congrArg (fun z : EReal => xo (ix2 p q) + z) ?_
  unfold Mlp.tile Mlp.act Mlp.proj
  refine Finset.sum_congr rfl fun k _ => ?_
  have e0 : ∀ h : Fin 4096, (iblk m c 0 t : FVec Ideal S512x4096 .bf16) (ix2 p h) = X m c (ix2 r h) :=
    fun h => Blocks.iblk0_apply m c t p h r hr
  have e1 : ∀ h : Fin 4096, (iblk m c 1 t : FVec Ideal S256x4096 .bf16) (ix2 k h)
      = WG m c (ix2 (Mlp.pos ⟨t.val % 43, ht⟩ k) h) := fun h => Blocks.iblk1_apply m c t k h _ rfl
  have e2 : ∀ h : Fin 4096, (iblk m c 2 t : FVec Ideal S256x4096 .bf16) (ix2 k h)
      = WU m c (ix2 (Mlp.pos ⟨t.val % 43, ht⟩ k) h) := fun h => Blocks.iblk2_apply m c t k h _ rfl
  have e3 : (iblk m c 3 t : FVec Ideal S256x4096 .bf16) (ix2 k q)
      = WDT m c (ix2 (Mlp.pos ⟨t.val % 43, ht⟩ k) q) := Blocks.iblk3_apply m c t k q _ rfl
  simp only [e0, e1, e2, e3]

/-- THE RUNNING SUM. After point `n` the buffer holds, at `(p, q)`, the tiles `0 … n % 43` of row `512 · (n / 43) + p`. -/
theorem outsAt_eq (c : Dev nD) : ∀ (n : ℕ) (hn : n < cfg0.N) (p : Fin 512) (q : Fin 4096) (r : Fin 8192),
    r.val = 512 * (n / 43) + p.val →
    outsAt0 m c n hn (ix2 p q) = Mlp.partialSum (X m c) (WG m c) (WU m c) (WDT m c) r (n % 43) q := by
  intro n
  induction n with
  | zero =>
    intro hn p q r hr
    refine (congrFun (at_A m c ⟨0, hn⟩ rfl) (ix2 p q)).trans ?_
    refine (point_eq m c ⟨0, hn⟩ _ p q r hr (Nat.mod_lt _ (by decide))).trans ?_
    rw [Body.pay1_apply, zero_add]
    exact (Mlp.partialSum_first _ _ _ _ r q (0 % 43) (by decide) rfl).symm
  | succ n ih =>
    intro hn p q r hr
    have hlt : (n + 1) % 43 < 43 := Nat.mod_lt _ (by decide)
    by_cases h0 : (n + 1) % 43 = 0
    · refine (congrFun (at_A m c ⟨n + 1, hn⟩ h0) (ix2 p q)).trans ?_
      refine (point_eq m c ⟨n + 1, hn⟩ _ p q r hr hlt).trans ?_
      rw [Body.pay1_apply, zero_add]
      exact (Mlp.partialSum_first _ _ _ _ r q ((n + 1) % 43) hlt h0).symm
    · refine (congrFun (at_B m c ⟨n + 1, hn⟩ h0) (ix2 p q)).trans ?_
      refine (point_eq m c ⟨n + 1, hn⟩ _ p q r hr hlt).trans ?_
      have hr' : r.val = 512 * (n / 43) + p.val := by rw [hr]; omega
      have hprev : outsAt0 m c ((⟨n + 1, hn⟩ : Fin cfg0.N).val - 1) (Nat.lt_of_le_of_lt (Nat.sub_le _ _) (⟨n + 1, hn⟩ : Fin cfg0.N).isLt) (ix2 p q)
          = Mlp.partialSum (X m c) (WG m c) (WU m c) (WDT m c) r (n % 43) q := ih (Nat.lt_of_succ_lt hn) p q r hr'
      rw [hprev]
      exact (Mlp.partialSum_step _ _ _ _ r q (n % 43) ((n + 1) % 43) hlt (by omega)).symm

end Cert.KernelIdeal.Chain

end
-- ==== Proof.Final.lean ====
/-
  From the running blocks to the program's result.

  The result's window is written back once per row block, after its last tile (points `t` with `t % 43 = 42`), and by
  then its staging buffer holds all 43 tiles added up, which is the whole contraction over the intermediate axis:
  block `t / 43` of the result matrix `OUT`. The 16 row blocks tile the 8192 rows, so the region leaves the array at
  `OUT`; the one host operation after the region re-lays it as 4 × 2048 rows.
-/
import proofs.«178565_j44899588112791_2_alg».proof.Proof.Gen.KernelIdeal.Frame
import proofs.«178565_j44899588112791_2_alg».proof.Proof.Chain
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Chain

variable (m : (ℓ : Loc nD τ sig) → Buf (Elt Ideal) ℓ) (ρ : Dev nD → PrngReg)

/-- The result matrix: every token row's activations contracted with the down weights. -/
def OUT (c : Dev nD) : S8192x4096.Idx → EReal :=
  fun j => Mlp.out2 (X m c) (WG m c) (WU m c) (WDT m c) (j 0) (j 1)

/-- What a row block's last point writes back is that block of `OUT`. -/
theorem flushed_eq (c : Dev nD) (t : Fin cfg0.N) (hf : (cfg0.win 4).flush t = true) :
    (dats m 0 c).flushed 4 t = ((cfg0.win 4).blk t).view.read (Elt Ideal) (OUT m c) := by
  show (cfg0.win 4).cut (grid0.coords t) ((dats m 0 c).after 4 t) = _
  rw [after0_4]
  have h42 : t.val % 43 = 42 := (flush0_4 t).mp hf
  have hN : t.val < 688 := lt_of_lt_of_eq t.isLt (show cfg0.N = 688 from N_0)
  funext j
  obtain ⟨p, q, rfl⟩ : ∃ (p : Fin 512) (q : Fin 4096), j = ix2 p q := ⟨j 0, j 1, eq_ix2 j⟩
  rw [View.read_apply]
  show outsAt0 m c t.val t.isLt (ix2 p q) = OUT m c (((cfg0.win 4).blk t).view.emb (ix2 p q))
  rw [outsAt_eq m c t.val t.isLt p q ⟨512 * (t.val / 43) + p.val, by omega⟩ rfl, h42, Mlp.partialSum_last]
  unfold OUT
  congr 1
  · apply Fin.ext
    show 512 * (t.val / 43) + p.val = win0_4.index t 0 * 512 + 1 * p.val
    rw [(Blocks.idx4 t).1]; omega
  · apply Fin.ext
    show q.val = win0_4.index t 1 * 4096 + 1 * q.val
    rw [(Blocks.idx4 t).2]; omega

/-- The region leaves the result array at `OUT`: row `i` is written back by the last point of row block `i / 512`. -/
theorem final (c : Dev nD) : (dats m 0 c).arrAt 4 cfg0.N = OUT m c :=
  (dats m 0 c).arrAt_eq_of_cover 4 (OUT m c) (flushed_eq m c) fun i => by
    have h0 : (i 0).val < 8192 := (i 0).isLt
    have h1 : (i 1).val < 4096 := (i 1).isLt
    have hN : cfg0.N = 688 := N_0
    have ht : 43 * ((i 0).val / 512) + 42 < cfg0.N := by rw [hN]; omega
    have e0 : win0_4.index ⟨43 * ((i 0).val / 512) + 42, ht⟩ 0 = (i 0).val / 512 := by
      rw [(Blocks.idx4 _).1]; show (43 * ((i 0).val / 512) + 42) / 43 = _; omega
    have e1 : win0_4.index ⟨43 * ((i 0).val / 512) + 42, ht⟩ 1 = 0 := (Blocks.idx4 _).2
    refine ⟨⟨43 * ((i 0).val / 512) + 42, ht⟩, (flush0_4 _).mpr (by show (43 * ((i 0).val / 512) + 42) % 43 = 42; omega), ?_⟩
    show i ∈ ((View.whole main_v28).slice (win0_4.rect ⟨43 * ((i 0).val / 512) + 42, ht⟩)).set
    rw [View.set_slice_whole, Rect.mem_set_unit]
    intro a
    match a with
    | ⟨0, _⟩ =>
      show win0_4.index ⟨43 * ((i 0).val / 512) + 42, ht⟩ 0 * 512 ≤ (i 0).val
        ∧ (i 0).val < win0_4.index ⟨43 * ((i 0).val / 512) + 42, ht⟩ 0 * 512 + 512
      rw [e0]; omega
    | ⟨1, _⟩ =>
      show win0_4.index ⟨43 * ((i 0).val / 512) + 42, ht⟩ 1 * 4096 ≤ (i 1).val
        ∧ (i 1).val < win0_4.index ⟨43 * ((i 0).val / 512) + 42, ht⟩ 1 * 4096 + 4096
      rw [e1]; omega

/-- The program's result: the result matrix re-laid as 4 × 2048 rows. -/
def result (c : Dev nD) : S4x2048x4096.Idx → EReal :=
  shapeCast S4x2048x4096 (OUT m c) shapeCasts_S8192x4096_S4x2048x4096

/-- The host operation after the region re-lays the array the region left. -/
theorem tail_eq (c : Dev nD) :
    Pipeline.afterTail₀ cfgs (dats m) 0 (V0 m) [hostOps1] c main_v29 = result m c := by
  unfold Pipeline.afterTail₀
  show StableHlo.after hostOps1 _ (Proc.devRef .tc main_v29) = _
  after_results
  have e : Pipeline.withArrays (cfgs 0).spec c (V0 m c) (fun w => (dats m 0 c).arrAt w (cfgs 0).N) (Proc.tc.devRef main_v28)
      = OUT m c :=
    (Pipeline.withArrays_arr spec0 launch0.win.arr_inj c (V0 m c) (fun w => (dats m 0 c).arrAt w cfg0.N) 4).trans (final m c)
  rw [e]
  rfl

/-- THE KERNEL'S RUN, READ: every weakly fair execution ends with the result array at `result` and the five arguments
    as launched. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.HostPrefix.lean ====
/-
  The four arrays the region reads, as the host operations before it compute them from the arguments.

  The token rows are the argument `x` re-laid as 8192 rows (narrowed to 16 bits, which changes nothing over the
  extended reals). Each weight matrix is the codebook (narrowed likewise) gathered row by row at an index array whose
  negative entries are first shifted up by the codebook's length, the eight-entry rows then laid side by side
  (`deqRows`, `deqCols`); the down weights are finally transposed. The gathers are never opened: both programs of this
  certificate apply the same gather to the same operands.
-/
import proofs.«178565_j44899588112791_2_alg».proof.Proof.Gen.KernelIdeal.Frame.Runs
import Idealize.ShloMosaic.Lib.StableHlo.Run

noncomputable section

open Idealize.ShloMosaic Idealize.ShloMosaic.TcCoe Idealize.SL.Sem

namespace Cert.KernelIdeal.HostPrefix

open Cert.KernelIdeal Cert.KernelIdeal.Gen

variable {F : FTy → Type} [FloatOps F]
variable (m : (ℓ : Loc nD τ sig) → Buf (Elt F) ℓ)

/-- A weight matrix of 11008 rows: codebook rows gathered at the normalized indices, 512 of them side by side per row. -/
def deqRows (cb : FVec F S65536x8 .f32) (idx : IVec S11008x512 32) : FVec F S11008x4096 .bf16 :=
  shapeCast S11008x4096
    (Host.gather gather_S65536x8_S11008x512x1_S11008x512x8_2_0_n_n_0_2_18 (truncf .bf16 cb bitsLt_bf16_f32)
      (broadcastInDim S11008x512x1 ![0, 1] bcast_S11008x512_S11008x512x1_0_1
        (select (cmpi .slt idx (broadcastInDim S11008x512 ![] bcast_S_S11008x512 (constantI S_ 32 0#32)))
          (addi idx (broadcastInDim S11008x512 ![] bcast_S_S11008x512 (constantI S_ 32 65536#32))) idx)))
    shapeCasts_S11008x512x8_S11008x4096

/-- The down weights, 4096 rows of 11008: the same with 1376 codebook rows side by side per row. -/
def deqCols (cb : FVec F S65536x8 .f32) (idx : IVec S4096x1376 32) : FVec F S4096x11008 .bf16 :=
  shapeCast S4096x11008
    (Host.gather gather_S65536x8_S4096x1376x1_S4096x1376x8_2_0_n_n_0_2_18 (truncf .bf16 cb bitsLt_bf16_f32)
      (broadcastInDim S4096x1376x1 ![0, 1] bcast_S4096x1376_S4096x1376x1_0_1
        (select (cmpi .slt idx (broadcastInDim S4096x1376 ![] bcast_S_S4096x1376 (constantI S_ 32 0#32)))
          (addi idx (broadcastInDim S4096x1376 ![] bcast_S_S4096x1376 (constantI S_ 32 65536#32))) idx)))
    shapeCasts_S4096x1376x8_S4096x11008

/-- The token rows the region finds. -/
theorem V_rows (c : Dev nD) :
    V m c main_v27 = truncf .bf16 (shapeCast S8192x4096 (m ((c : Thread nD τ).loc main_arg0)) shapeCasts_S4x2048x4096_S8192x4096)
      bitsLt_bf16_f32 := by
  show StableHlo.after hostOps0 (fun b => m (c, b)) (Proc.devRef .tc main_v27) = _
  after_results
  rfl

/-- The gate weights the region finds. -/
theorem V_gate (c : Dev nD) :
    V m c main_v8 = deqRows (m ((c : Thread nD τ).loc main_arg1)) (m ((c : Thread nD τ).loc main_arg2)) := by
  show StableHlo.after hostOps0 (fun b => m (c, b)) (Proc.devRef .tc main_v8) = _
  after_results
  rfl

/-- The up weights the region finds. -/
theorem V_up (c : Dev nD) :
    V m c main_v16 = deqRows (m ((c : Thread nD τ).loc main_arg1)) (m ((c : Thread nD τ).loc main_arg3)) := by
  show StableHlo.after hostOps0 (fun b => m (c, b)) (Proc.devRef .tc main_v16) = _
  after_results
  rfl

set_option maxHeartbeats 2000000 in
/-- The transposed down weights the region finds. -/
theorem V_down (c : Dev nD) :
    V m c main_v25 = transpose S11008x4096 [1, 0]
      (deqCols (m ((c : Thread nD τ).loc main_arg1)) (m ((c : Thread nD τ).loc main_arg4))) transposes_S4096x11008_S11008x4096_1_0 := by
  show StableHlo.after hostOps0 (fun b => m (c, b)) (Proc.devRef .tc main_v25) = _
  after_results_simp <;> rfl

end Cert.KernelIdeal.HostPrefix

end
-- ==== Proof.Layout.lean ====
/-
  The same layer with the token rows kept as 4 sequences of 2048 and the down weights untransposed: row
  `2048 · b + s` of the flat matrix is token `(b, s)`, and entry `(i, q)` of the transposed down weights is entry
  `(q, i)` of the down weights. Nothing is rearranged but the names of the entries.
-/
import proofs.«178565_j44899588112791_2_alg».proof.Proof.Spec

noncomputable section

open scoped BigOperators
open Idealize.ShloMosaic Idealize.ShloMosaic.ValueIdx

namespace Mlp

/-- Sequences by tokens by hidden positions. -/
abbrev Tok : Shape := ⟨3, ![4, 2048, 4096]⟩
/-- Hidden positions by intermediate positions. -/
abbrev Down : Shape := ⟨2, ![4096, 11008]⟩

/-- The layer's result at token `(b, s)`, hidden position `q`. -/
def out3 (x : Tok.Idx → EReal) (wg wu : Wts.Idx → EReal) (wd : Down.Idx → EReal) (b : Fin 4) (s : Fin 2048) (q : Fin 4096) : EReal :=
  ∑ i : Fin 11008,
    ((∑ h : Fin 4096, x (ix3 b s h) * wg (ix2 i h)) * Ideal.logistic (∑ h : Fin 4096, x (ix3 b s h) * wg (ix2 i h))
      * (∑ h : Fin 4096, x (ix3 b s h) * wu (ix2 i h))) * wd (ix2 q i)

/-- The flat form at row `r` is the layered form at the token that row holds. -/
theorem out2_eq_out3 (X : Rows.Idx → EReal) (WG WU WDT : Wts.Idx → EReal) (x : Tok.Idx → EReal) (wd : Down.Idx → EReal)
    (r : Fin 8192) (b : Fin 4) (s : Fin 2048) (q : Fin 4096)
    (hX : ∀ h : Fin 4096, X (ix2 r h) = x (ix3 b s h)) (hD : ∀ i : Fin 11008, WDT (ix2 i q) = wd (ix2 q i)) :
    out2 X WG WU WDT r q = out3 x WG WU wd b s q := by
  unfold out2 out3 act proj
  refine Finset.sum_congr rfl fun i _ => ?_
  simp only [hX, hD]

end Mlp

end
-- ==== Proof.Result.lean ====
/-
  The kernel's result, entry by entry, in terms of the arguments: the layer of `Mlp.out3` on the argument `x` and the
  three weight matrices the host dequantizes before the region.

  The program's result at token `(b, s)` is row `2048 · b + s` of the result matrix; that row of the token matrix is
  token `(b, s)` of `x`; and the transposed down weights at `(i, q)` are the down weights at `(q, i)`.
-/
import proofs.«178565_j44899588112791_2_alg».proof.Proof.Final
import proofs.«178565_j44899588112791_2_alg».proof.Proof.HostPrefix
import proofs.«178565_j44899588112791_2_alg».proof.Proof.Layout
import Idealize.ShloMosaic.Lib.ValueLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.Result

open Cert.KernelIdeal Cert.KernelIdeal.Gen Cert.KernelIdeal.Chain Cert.KernelIdeal.HostPrefix

variable (m : (ℓ : Loc nD τ sig) → Buf (Elt Ideal) ℓ)

/-- Row `2048 · b + s` of the token matrix is token `(b, s)` of the argument. -/
theorem rows_apply (c : Dev nD) (b : Fin 4) (s : Fin 2048) (h : Fin 4096) (r : Fin 8192) (hr : r.val = 2048 * b.val + s.val) :
    X m c (ix2 r h) = (m ((c : Thread nD τ).loc main_arg0) : S4x2048x4096.Idx → EReal) (ix3 b s h) := by
  show (V m c main_v27 : S8192x4096.Idx → EReal) (ix2 r h) = _
  rw [V_rows]
  refine (shapeCast_apply (m ((c : Thread nD τ).loc main_arg0) : S4x2048x4096.Idx → EReal) shapeCasts_S4x2048x4096_S8192x4096
    (ix2 r h) (ix3 b s h) ?_)
  show (S4x2048x4096.rowMajor (ix3 b s h)).val = (S8192x4096.rowMajor (ix2 r h)).val
  rw [Shape.rowMajor_val_three, Shape.rowMajor_val_two]
  show (b.val * 2048 + s.val) * 4096 + h.val = r.val * 4096 + h.val
  rw [hr]; ring

/-- The transposed down weights at `(i, q)` are the down weights at `(q, i)`. -/
theorem down_apply (c : Dev nD) (i : Fin 11008) (q : Fin 4096) :
    WDT m c (ix2 i q)
      = (deqCols (F := Ideal) (m ((c : Thread nD τ).loc main_arg1)) (m ((c : Thread nD τ).loc main_arg4)) : S4096x11008.Idx → EReal) (ix2 q i) := by
  show (V m c main_v25 : S11008x4096.Idx → EReal) (ix2 i q) = _
  rw [V_down]
  exact transpose_ix2_apply _ _ i q

/-- THE KERNEL'S RESULT at token `(b, s)`, hidden position `q`. -/
theorem result_apply (c : Dev nD) (b : Fin 4) (s : Fin 2048) (q : Fin 4096) :
    Final.result m c (ix3 b s q)
      = Mlp.out3 (m ((c : Thread nD τ).loc main_arg0))
          (deqRows (F := Ideal) (m ((c : Thread nD τ).loc main_arg1)) (m ((c : Thread nD τ).loc main_arg2)))
          (deqRows (F := Ideal) (m ((c : Thread nD τ).loc main_arg1)) (m ((c : Thread nD τ).loc main_arg3)))
          (deqCols (F := Ideal) (m ((c : Thread nD τ).loc main_arg1)) (m ((c : Thread nD τ).loc main_arg4))) b s q := by
  have hb : b.val < 4 := b.isLt
  have hs : s.val < 2048 := s.isLt
  unfold Final.result
  refine (shapeCast_apply (Final.OUT m c) shapeCasts_S8192x4096_S4x2048x4096 (ix3 b s q)
    (ix2 (⟨2048 * b.val + s.val, by omega⟩ : Fin 8192) q) ?_).trans ?_
  · show (S8192x4096.rowMajor (ix2 (⟨2048 * b.val + s.val, by omega⟩ : Fin 8192) q)).val = (S4x2048x4096.rowMajor (ix3 b s q)).val
    rw [Shape.rowMajor_val_three, Shape.rowMajor_val_two]
    show (2048 * b.val + s.val) * 4096 + q.val = (b.val * 2048 + s.val) * 4096 + q.val
    ring
  · show Mlp.out2 (X m c) (WG m c) (WU m c) (WDT m c) ⟨2048 * b.val + s.val, by omega⟩ q = _
    rw [Mlp.out2_eq_out3 (X m c) (WG m c) (WU m c) (WDT m c) (m ((c : Thread nD τ).loc main_arg0))
      (deqCols (F := Ideal) (m ((c : Thread nD τ).loc main_arg1)) (m ((c : Thread nD τ).loc main_arg4)))
      ⟨2048 * b.val + s.val, by omega⟩ b s q (fun h => rows_apply m c b s h _ rfl) (fun i => down_apply m c i q)]
    show Mlp.out3 _ (V m c main_v8) (V m c main_v16) _ b s q = _
    rw [V_gate, V_up]

end Cert.KernelIdeal.Result

end
-- ==== Proof.RefRead.lean ====
/-
  The reference's result, entry by entry: the layer of `Mlp.out3` on the argument `x` and the three weight matrices
  the reference dequantizes.

  The reference contracts `x` with the gate and up weights over the hidden axis, forms `g · (1 / (1 + exp (−g)))`
  entrywise and multiplies by the up projection, and contracts the result with the down weights over the
  intermediate axis. Over the extended reals `1 / (1 + exp (−g))` is, by definition, `logistic g` (the literal `1.0`
  denotes the real number one), so each entry is the same term as the kernel's.
-/
import proofs.«178565_j44899588112791_2_alg».proof.Proof.Gen.ReferenceIdeal.Read
import proofs.«178565_j44899588112791_2_alg».proof.Proof.Layout

noncomputable section

open scoped BigOperators
open Idealize.ShloMosaic Idealize.ShloMosaic.ValueIdx

namespace Cert.ReferenceIdeal.RefValue

open Cert.ReferenceIdeal Cert.ReferenceIdeal.Read

/-- The 32-bit pattern of `1.0` denotes one. -/
theorem one_word : Ideal.ofBits .f32 0x3F800000#32 = 1 := by
  simp [Ideal.ofBits, Ideal.ieee, -EReal.coe_mul]; norm_num

/-- The reference's result at token `(b, s)`, hidden position `q`. -/
theorem ref_apply (x0 : (⟨S4x2048x4096, .f32⟩ : BufTy).Contents (Elt Ideal)) (x1 : (⟨S65536x8, .f32⟩ : BufTy).Contents (Elt Ideal))
    (x2 x3 : (⟨S11008x512, .i32⟩ : BufTy).Contents (Elt Ideal)) (x4 : (⟨S4096x1376, .i32⟩ : BufTy).Contents (Elt Ideal))
    (b : Fin 4) (s : Fin 2048) (q : Fin 4096) :
    val_main_v28 (F := Ideal) x0 x1 x2 x3 x4 (ix3 b s q)
      = Mlp.out3 x0 (val_main_v7 (F := Ideal) x1 x2) (val_main_v15 (F := Ideal) x1 x3) (val_main_v23 (F := Ideal) x1 x4) b s q := by
  rw [val_main_v28_apply]
  unfold Mlp.out3
  refine Finset.sum_congr rfl fun i _ => ?_
  have el : lidx_main_v28 (ix3 b s q) i = ix3 b s i :=
    funext fun a => Fin.ext (by match a with | ⟨0, _⟩ => rfl | ⟨1, _⟩ => rfl | ⟨2, _⟩ => rfl)
  have er : ridx_main_v28 (ix3 b s q) i = ix2 q i :=
    funext fun a => Fin.ext (by match a with | ⟨0, _⟩ => rfl | ⟨1, _⟩ => rfl)
  have el24 : ∀ h : Fin 4096, lidx_main_v24 (ix3 b s i) h = ix3 b s h :=
    fun h => funext fun a => Fin.ext (by match a with | ⟨0, _⟩ => rfl | ⟨1, _⟩ => rfl | ⟨2, _⟩ => rfl)
  have er24 : ∀ h : Fin 4096, ridx_main_v24 (ix3 b s i) h = ix2 i h :=
    fun h => funext fun a => Fin.ext (by match a with | ⟨0, _⟩ => rfl | ⟨1, _⟩ => rfl)
  have el25 : ∀ h : Fin 4096, lidx_main_v25 (ix3 b s i) h = ix3 b s h :=
    fun h => funext fun a => Fin.ext (by match a with | ⟨0, _⟩ => rfl | ⟨1, _⟩ => rfl | ⟨2, _⟩ => rfl)
  have er25 : ∀ h : Fin 4096, ridx_main_v25 (ix3 b s i) h = ix2 i h :=
    fun h => funext fun a => Fin.ext (by match a with | ⟨0, _⟩ => rfl | ⟨1, _⟩ => rfl)
  rw [el, er, val_main_v27_apply, val_main_v26_apply, val_main_call0_v5_apply, val_main_call0_v4_apply,
    val_main_call0_cst_0_apply, val_main_call0_v3_apply, val_main_call0_v2_apply, val_main_call0_cst_apply,
    val_main_call0_v1_apply, val_main_call0_v0_apply, val_main_v24_apply, val_main_v25_apply]
  simp only [el24, er24, el25, er25, Ideal.ofBits_def, one_word]
  rfl

end Cert.ReferenceIdeal.RefValue

end
-- ==== Proof.lean ====
/-
  A fused gated feed-forward layer against its plain reference, over the extended reals.

  Both programs dequantize three weight matrices from one codebook by the same gather (never opened here), project
  every token of `x` on the 11008 intermediate positions with the gate and up weights, form `(g · logistic g) · u`, and
  contract with the down weights. The kernel does it on 16 row blocks of 512 tokens, 43 tiles of 256 intermediate
  positions at a time, adding each tile's product into the result block it keeps in place across the tiles; the
  reference does it in three whole contractions. Entry by entry the two results are one sum over the intermediate
  axis, the kernel's taken tile by tile from zero: equal by the commutative-monoid laws of a finite sum alone, so the
  finiteness of the inputs is never used. The three frames are the generated ones (the reference's is its generated
  run with the result dropped); the idealization rewrote nothing, so `preserves` is trivial.
-/
import proofs.«178565_j44899588112791_2_alg».proof.Defs
import proofs.«178565_j44899588112791_2_alg».proof.Proof.Gen.Kernel
import proofs.«178565_j44899588112791_2_alg».proof.Proof.Gen.Kernel.Skeleton
import proofs.«178565_j44899588112791_2_alg».proof.Proof.Gen.Kernel.Launch
import proofs.«178565_j44899588112791_2_alg».proof.Proof.Gen.Kernel.Points
import proofs.«178565_j44899588112791_2_alg».proof.Proof.Gen.Kernel.Frame
import proofs.«178565_j44899588112791_2_alg».proof.Proof.Gen.KernelIdeal
import proofs.«178565_j44899588112791_2_alg».proof.Proof.Gen.KernelIdeal.Skeleton
import proofs.«178565_j44899588112791_2_alg».proof.Proof.Gen.KernelIdeal.Launch
import proofs.«178565_j44899588112791_2_alg».proof.Proof.Gen.KernelIdeal.Points
import proofs.«178565_j44899588112791_2_alg».proof.Proof.Gen.KernelIdeal.Frame
import proofs.«178565_j44899588112791_2_alg».proof.Proof.Gen.ReferenceIdeal
import proofs.«178565_j44899588112791_2_alg».proof.Proof.Gen.ReferenceIdeal.Run
import proofs.«178565_j44899588112791_2_alg».proof.Proof.Gen.ReferenceIdeal.Read
import proofs.«178565_j44899588112791_2_alg».proof.Proof.Gen.Pre_finite_inputs
import proofs.«178565_j44899588112791_2_alg».proof.Proof.Result
import proofs.«178565_j44899588112791_2_alg».proof.Proof.RefRead
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's result on arguments that agree: the kernel's entry by entry from its running
    blocks, the reference's from its three contractions, the dequantized weights one term on both sides. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨e0, e1, e2, e3, e4⟩ := hagree c
  rw [e0, e1, e2, e3, e4]
  funext j
  obtain ⟨b, s, q, rfl⟩ : ∃ (b : Fin 4) (s : Fin 2048) (q : Fin 4096), j = ix3 b s q := ⟨j 0, j 1, j 2, eq_ix3 j⟩
  rw [Cert.ReferenceIdeal.RefValue.ref_apply]
  exact (Cert.KernelIdeal.Result.result_apply m c b s q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
